-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x320000 : Shape := ⟨2, ![16, 320000]⟩
abbrev S1025x2048 : Shape := ⟨2, ![1025, 2048]⟩
abbrev S_ : Shape := ⟨0, ![]⟩

class Facts : Prop where
  bcast_S_S16x320000 : S_.BroadcastsInDim S16x320000 (![] : Fin 0 → Fin S16x320000.rank)
  reducesTo_S16x320000_S_d0_1 : S16x320000.ReducesTo [0, 1] S_
  h_S_ : 0 < S_.numel
  bcast_S_S1025x2048 : S_.BroadcastsInDim S1025x2048 (![] : Fin 0 → Fin S1025x2048.rank)
  reducesTo_S1025x2048_S_d0_1 : S1025x2048.ReducesTo [0, 1] S_

variable [Facts]

def fn {F : FTy → Type} [FloatOps F] (main_arg0 : FVec F S16x320000 .f32) (main_arg1 : FVec F S1025x2048 .f32) (main_arg2 : FVec F S1025x2048 .f32) : IVec S_ 1 :=
  let main_v0 : FVec F S16x320000 .f32 := Host.absf main_arg0
  let main_cst : FVec F S_ .f32 := constant S_ .f32 0x7F800000#32
  let main_v1 : FVec F S16x320000 .f32 := broadcastInDim S16x320000 ![] bcast_S_S16x320000 main_cst
  let main_v2 : IVec S16x320000 1 := cmpf .olt main_v0 main_v1
  let main_c : IVec S_ 1 := constantI S_ 1 1#1
  let main_v3 : IVec S_ 1 := (fun x v => Host.reduce IntOp.andi x v reducesTo_S16x320000_S_d0_1 h_S_) main_v2 main_c
  let main_v4 : FVec F S1025x2048 .f32 := Host.absf main_arg1
  let main_cst_0 : FVec F S_ .f32 := constant S_ .f32 0x7F800000#32
  let main_v5 : FVec F S1025x2048 .f32 := broadcastInDim S1025x2048 ![] bcast_S_S1025x2048 main_cst_0
  let main_v6 : IVec S1025x2048 1 := cmpf .olt main_v4 main_v5
  let main_c_1 : IVec S_ 1 := constantI S_ 1 1#1
  let main_v7 : IVec S_ 1 := (fun x v => Host.reduce IntOp.andi x v reducesTo_S1025x2048_S_d0_1 h_S_) main_v6 main_c_1
  let main_v8 : IVec S_ 1 := andi main_v3 main_v7
  let main_v9 : FVec F S1025x2048 .f32 := Host.absf main_arg2
  let main_cst_2 : FVec F S_ .f32 := constant S_ .f32 0x7F800000#32
  let main_v10 : FVec F S1025x2048 .f32 := broadcastInDim S1025x2048 ![] bcast_S_S1025x2048 main_cst_2
  let main_v11 : IVec S1025x2048 1 := cmpf .olt main_v9 main_v10
  let main_c_3 : IVec S_ 1 := constantI S_ 1 1#1
  let main_v12 : IVec S_ 1 := (fun x v => Host.reduce IntOp.andi x v reducesTo_S1025x2048_S_d0_1 h_S_) main_v11 main_c_3
  let main_v13 : IVec S_ 1 := andi main_v8 main_v12
  main_v13
-- ==== Kernel.lean ====
abbrev S16x320000 : Shape := ⟨2, ![16, 320000]⟩
abbrev S1025x2048 : Shape := ⟨2, ![1025, 2048]⟩
abbrev S_ : Shape := ⟨0, ![]⟩
abbrev S16x1 : Shape := ⟨2, ![16, 1]⟩
abbrev S16x1024 : Shape := ⟨2, ![16, 1024]⟩
abbrev S16x321024 : Shape := ⟨2, ![16, 321024]⟩
abbrev S16x322048 : Shape := ⟨2, ![16, 322048]⟩
abbrev S16x629x512 : Shape := ⟨3, ![16, 629, 512]⟩
abbrev S16x1025x626 : Shape := ⟨3, ![16, 1025, 626]⟩
abbrev S1x629x512 : Shape := ⟨3, ![1, 629, 512]⟩
abbrev S1x1025x626 : Shape := ⟨3, ![1, 1025, 626]⟩
abbrev S1025x626 : Shape := ⟨2, ![1025, 626]⟩
abbrev S1x626x512 : Shape := ⟨3, ![1, 626, 512]⟩
abbrev S626x512 : Shape := ⟨2, ![626, 512]⟩
abbrev S1025x512 : Shape := ⟨2, ![1025, 512]⟩

abbrev nBuf : Space → Nat
  | .hbm => 18
  | .vmem => 8
  | .smem => 0
  | _ => 0

abbrev bufTy : (tb : Table) → Fin (tcTables nBuf tb) → BufTy
  | .hbm, ⟨0, _⟩ => ⟨S16x320000, .f32⟩
  | .hbm, ⟨1, _⟩ => ⟨S1025x2048, .f32⟩
  | .hbm, ⟨2, _⟩ => ⟨S1025x2048, .f32⟩
  | .hbm, ⟨3, _⟩ => ⟨S_, .i32⟩
  | .hbm, ⟨4, _⟩ => ⟨S16x1, .f32⟩
  | .hbm, ⟨5, _⟩ => ⟨S16x1024, .f32⟩
  | .hbm, ⟨6, _⟩ => ⟨S16x1024, .f32⟩
  | .hbm, ⟨7, _⟩ => ⟨S16x321024, .f32⟩
  | .hbm, ⟨8, _⟩ => ⟨S16x1, .f32⟩
  | .hbm, ⟨9, _⟩ => ⟨S16x1024, .f32⟩
  | .hbm, ⟨10, _⟩ => ⟨S16x1024, .f32⟩
  | .hbm, ⟨11, _⟩ => ⟨S16x322048, .f32⟩
  | .hbm, ⟨12, _⟩ => ⟨S16x322048, .bf16⟩
  | .hbm, ⟨13, _⟩ => ⟨S16x629x512, .bf16⟩
  | .hbm, ⟨14, _⟩ => ⟨S1025x2048, .bf16⟩
  | .hbm, ⟨15, _⟩ => ⟨S1025x2048, .bf16⟩
  | .hbm, ⟨16, _⟩ => ⟨S16x1025x626, .f32⟩
  | .hbm, ⟨17, _⟩ => ⟨S16x1025x626, .f32⟩
  | .local _ .vmem, ⟨0, _⟩ => ⟨S1x629x512, .bf16⟩
  | .local _ .vmem, ⟨1, _⟩ => ⟨S1x629x512, .bf16⟩
  | .local _ .vmem, ⟨2, _⟩ => ⟨S1025x2048, .bf16⟩
  | .local _ .vmem, ⟨3, _⟩ => ⟨S1025x2048, .bf16⟩
  | .local _ .vmem, ⟨4, _⟩ => ⟨S1x1025x626, .f32⟩
  | .local _ .vmem, ⟨5, _⟩ => ⟨S1x1025x626, .f32⟩
  | .local _ .vmem, ⟨6, _⟩ => ⟨S1x1025x626, .f32⟩
  | .local _ .vmem, ⟨7, _⟩ => ⟨S1x1025x626, .f32⟩
  | _, _ => ⟨S16x320000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x629x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1025x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1025x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1025x626 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1025x626 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S16x320000_S16x1_0_0 : S16x320000.Slices ![0, 0] S16x1
  slices_S16x320000_S16x1024_0_1 : S16x320000.Slices ![0, 1] S16x1024
  concatenates_S16x1024_S16x320000_S16x321024_d1 : Shape.Concatenates [S16x1024, S16x320000] S16x321024 1
  slices_S16x321024_S16x1_0_321023 : S16x321024.Slices ![0, 321023] S16x1
  slices_S16x321024_S16x1024_0_319999 : S16x321024.Slices ![0, 319999] S16x1024
  concatenates_S16x321024_S16x1024_S16x322048_d1 : Shape.Concatenates [S16x321024, S16x1024] S16x322048 1
  bitsLt_bf16_f32 : FTy.bits .bf16 < FTy.bits .f32
  shapeCasts_S16x322048_S16x629x512 : S16x322048.ShapeCasts S16x629x512
  inb_S1x629x512_S1x626x512_0_0_0 : ∀ a, (![0, 0, 0] : Fin 3 → Nat) a + S1x626x512.size a ≤ S1x629x512.size a
  h_S1x626x512 : 0 < S1x626x512.numel
  shapeCasts_S1x626x512_S626x512 : S1x626x512.ShapeCasts S626x512
  inb_S1025x2048_S1025x512_0_0 : ∀ a, (![0, 0] : Fin 2 → Nat) a + S1025x512.size a ≤ S1025x2048.size a
  h_S1025x512 : 0 < S1025x512.numel
  shapeCasts_S1025x512_S1025x512 : S1025x512.ShapeCasts S1025x512
  inb_S1x629x512_S1x626x512_0_1_0 : ∀ a, (![0, 1, 0] : Fin 3 → Nat) a + S1x626x512.size a ≤ S1x629x512.size a
  inb_S1025x2048_S1025x512_0_512 : ∀ a, (![0, 512] : Fin 2 → Nat) a + S1025x512.size a ≤ S1025x2048.size a
  inb_S1x629x512_S1x626x512_0_2_0 : ∀ a, (![0, 2, 0] : Fin 3 → Nat) a + S1x626x512.size a ≤ S1x629x512.size a
  inb_S1025x2048_S1025x512_0_1024 : ∀ a, (![0, 1024] : Fin 2 → Nat) a + S1025x512.size a ≤ S1025x2048.size a
  inb_S1x629x512_S1x626x512_0_3_0 : ∀ a, (![0, 3, 0] : Fin 3 → Nat) a + S1x626x512.size a ≤ S1x629x512.size a
  inb_S1025x2048_S1025x512_0_1536 : ∀ a, (![0, 1536] : Fin 2 → Nat) a + S1025x512.size a ≤ S1025x2048.size a
  inb_S1x1025x626_S1x1025x626_0_0_0 : ∀ a, (![0, 0, 0] : Fin 3 → Nat) a + S1x1025x626.size a ≤ S1x1025x626.size a
  h_S1x1025x626 : 0 < S1x1025x626.numel
  shapeCasts_S1x1025x626_S1025x626 : S1x1025x626.ShapeCasts S1025x626
  shapeCasts_S1025x626_S1x1025x626 : S1025x626.ShapeCasts S1x1025x626
  dot_S1025x512_S626x512_S1025x626_1_1_0_0_n_n_wf : DotDims.WF S1025x512 S626x512 S1025x626 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x629x512.size a ≤ S16x629x512.size a
  hwx0_0 : ∀ i : grid0.Coords, EltTy.bits .bf16 = 32 ∨ (Rect.block (s := S16x629x512) S1x629x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1025x2048.size a ≤ S1025x2048.size a
  hwx0_1 : ∀ i : grid0.Coords, EltTy.bits .bf16 = 32 ∨ (Rect.block (s := S1025x2048) S1025x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1025x2048.size a ≤ S1025x2048.size a
  hwx0_2 : ∀ i : grid0.Coords, EltTy.bits .bf16 = 32 ∨ (Rect.block (s := S1025x2048) S1025x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1025x626.size a ≤ S16x1025x626.size a
  hwx0_3 : ∀ i : grid0.Coords, EltTy.bits .f32 = 32 ∨ (Rect.block (s := S16x1025x626) S1x1025x626.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1025x626.size a ≤ S16x1025x626.size a
  hwx0_4 : ∀ i : grid0.Coords, EltTy.bits .f32 = 32 ∨ (Rect.block (s := S16x1025x626) S1x1025x626.size (cc0_transform_4 i) (hinb0_4 i)).WholeWords (EltTy.packing .f32)

variable [Facts₀]

def dot_S1025x512_S626x512_S1025x626_1_1_0_0_n_n : DotDims S1025x512 S626x512 S1025x626 where
  lhsContracting := [1]
  rhsContracting := [1]
  lhsNonContracting := [0]
  rhsNonContracting := [0]
  lhsBatch := []
  rhsBatch := []
  wf := dot_S1025x512_S626x512_S1025x626_1_1_0_0_n_n_wf

abbrev win0_0 : Pipeline.Window sig grid0 :=
  Pipeline.Window.ofSpec (Memref.whole main_v2) S1x629x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1025x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1025x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x1025x626.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x1025x626.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x320000 : Shape := ⟨2, ![16, 320000]⟩
abbrev S1025x2048 : Shape := ⟨2, ![1025, 2048]⟩
abbrev S_ : Shape := ⟨0, ![]⟩
abbrev S16x1 : Shape := ⟨2, ![16, 1]⟩
abbrev S16x1024 : Shape := ⟨2, ![16, 1024]⟩
abbrev S16x321024 : Shape := ⟨2, ![16, 321024]⟩
abbrev S16x322048 : Shape := ⟨2, ![16, 322048]⟩
abbrev S626 : Shape := ⟨1, ![626]⟩
abbrev S626x1 : Shape := ⟨2, ![626, 1]⟩
abbrev S2048 : Shape := ⟨1, ![2048]⟩
abbrev S1x2048 : Shape := ⟨2, ![1, 2048]⟩
abbrev S626x2048 : Shape := ⟨2, ![626, 2048]⟩
abbrev S626x2048x1 : Shape := ⟨3, ![626, 2048, 1]⟩
abbrev S16x626x2048 : Shape := ⟨3, ![16, 626, 2048]⟩
abbrev S1025x16x626 : Shape := ⟨3, ![1025, 16, 626]⟩
abbrev S16x1025x626 : Shape := ⟨3, ![16, 1025, 626]⟩

abbrev nBuf : Space → Nat
  | .hbm => 35
  | .vmem => 0
  | .smem => 0
  | _ => 0

abbrev bufTy : (tb : Table) → Fin (tcTables nBuf tb) → BufTy
  | .hbm, ⟨0, _⟩ => ⟨S16x320000, .f32⟩
  | .hbm, ⟨1, _⟩ => ⟨S1025x2048, .f32⟩
  | .hbm, ⟨2, _⟩ => ⟨S1025x2048, .f32⟩
  | .hbm, ⟨3, _⟩ => ⟨S_, .i32⟩
  | .hbm, ⟨4, _⟩ => ⟨S16x1, .f32⟩
  | .hbm, ⟨5, _⟩ => ⟨S16x1024, .f32⟩
  | .hbm, ⟨6, _⟩ => ⟨S16x1024, .f32⟩
  | .hbm, ⟨7, _⟩ => ⟨S16x321024, .f32⟩
  | .hbm, ⟨8, _⟩ => ⟨S16x1, .f32⟩
  | .hbm, ⟨9, _⟩ => ⟨S16x1024, .f32⟩
  | .hbm, ⟨10, _⟩ => ⟨S16x1024, .f32⟩
  | .hbm, ⟨11, _⟩ => ⟨S16x322048, .f32⟩
  | .hbm, ⟨12, _⟩ => ⟨S626, .i32⟩
  | .hbm, ⟨13, _⟩ => ⟨S626x1, .i32⟩
  | .hbm, ⟨14, _⟩ => ⟨S_, .i32⟩
  | .hbm, ⟨15, _⟩ => ⟨S626x1, .i32⟩
  | .hbm, ⟨16, _⟩ => ⟨S626x1, .i32⟩
  | .hbm, ⟨17, _⟩ => ⟨S2048, .i32⟩
  | .hbm, ⟨18, _⟩ => ⟨S1x2048, .i32⟩
  | .hbm, ⟨19, _⟩ => ⟨S626x2048, .i32⟩
  | .hbm, ⟨20, _⟩ => ⟨S626x2048, .i32⟩
  | .hbm, ⟨21, _⟩ => ⟨S626x2048, .i32⟩
  | .hbm, ⟨22, _⟩ => ⟨S_, .i32⟩
  | .hbm, ⟨23, _⟩ => ⟨S626x2048, .i32⟩
  | .hbm, ⟨24, _⟩ => ⟨S626x2048, .i1⟩
  | .hbm, ⟨25, _⟩ => ⟨S_, .i32⟩
  | .hbm, ⟨26, _⟩ => ⟨S626x2048, .i32⟩
  | .hbm, ⟨27, _⟩ => ⟨S626x2048, .i32⟩
  | .hbm, ⟨28, _⟩ => ⟨S626x2048, .i32⟩
  | .hbm, ⟨29, _⟩ => ⟨S626x2048x1, .i32⟩
  | .hbm, ⟨30, _⟩ => ⟨S16x626x2048, .f32⟩
  | .hbm, ⟨31, _⟩ => ⟨S1025x16x626, .f32⟩
  | .hbm, ⟨32, _⟩ => ⟨S16x1025x626, .f32⟩
  | .hbm, ⟨33, _⟩ => ⟨S1025x16x626, .f32⟩
  | .hbm, ⟨34, _⟩ => ⟨S16x1025x626, .f32⟩
  | _, _ => ⟨S16x320000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  slices_S16x320000_S16x1_0_0 : S16x320000.Slices ![0, 0] S16x1
  slices_S16x320000_S16x1024_0_1 : S16x320000.Slices ![0, 1] S16x1024
  concatenates_S16x1024_S16x320000_S16x321024_d1 : Shape.Concatenates [S16x1024, S16x320000] S16x321024 1
  slices_S16x321024_S16x1_0_321023 : S16x321024.Slices ![0, 321023] S16x1
  slices_S16x321024_S16x1024_0_319999 : S16x321024.Slices ![0, 319999] S16x1024
  concatenates_S16x321024_S16x1024_S16x322048_d1 : Shape.Concatenates [S16x321024, S16x1024] S16x322048 1
  bcast_S626_S626x1_0 : S626.BroadcastsInDim S626x1 (![0] : Fin 1 → Fin S626x1.rank)
  bcast_S_S626x1 : S_.BroadcastsInDim S626x1 (![] : Fin 0 → Fin S626x1.rank)
  bcast_S2048_S1x2048_1 : S2048.BroadcastsInDim S1x2048 (![1] : Fin 1 → Fin S1x2048.rank)
  bcast_S626x1_S626x2048_0_1 : S626x1.BroadcastsInDim S626x2048 (![0, 1] : Fin 2 → Fin S626x2048.rank)
  bcast_S1x2048_S626x2048_0_1 : S1x2048.BroadcastsInDim S626x2048 (![0, 1] : Fin 2 → Fin S626x2048.rank)
  bcast_S_S626x2048 : S_.BroadcastsInDim S626x2048 (![] : Fin 0 → Fin S626x2048.rank)
  bcast_S626x2048_S626x2048x1_0_1 : S626x2048.BroadcastsInDim S626x2048x1 (![0, 1] : Fin 2 → Fin S626x2048x1.rank)
  transposes_S1025x16x626_S16x1025x626_1_0_2 : S1025x16x626.Transposes [1, 0, 2] S16x1025x626
  gather_S16x322048_S626x2048x1_S16x626x2048_0_1_n_n_1_2_161_wf : GatherDims.WF S16x322048 S626x2048x1 S16x626x2048 [0] [1] [] [1] [] 2 ![16, 1]
  dot_S1025x2048_S16x626x2048_S1025x16x626_1_2_0_01_n_n_wf : DotDims.WF S1025x2048 S16x626x2048 S1025x16x626 [1] [2] [0] [0, 1] [] []

variable [Facts₀]

def gather_S16x322048_S626x2048x1_S16x626x2048_0_1_n_n_1_2_161 : GatherDims S16x322048 S626x2048x1 S16x626x2048 where
  offsetDims := [0]
  collapsedSliceDims := [1]
  operandBatchingDims := []
  startIndicesBatchingDims := []
  startIndexMap := [1]
  indexVectorDim := 2
  sliceSizes := ![16, 1]
  wf := gather_S16x322048_S626x2048x1_S16x626x2048_0_1_n_n_1_2_161_wf
def dot_S1025x2048_S16x626x2048_S1025x16x626_1_2_0_01_n_n : DotDims S1025x2048 S16x626x2048 S1025x16x626 where
  lhsContracting := [1]
  rhsContracting := [2]
  lhsNonContracting := [0]
  rhsNonContracting := [0, 1]
  lhsBatch := []
  rhsBatch := []
  wf := dot_S1025x2048_S16x626x2048_S1025x16x626_1_2_0_01_n_n_wf

class Facts : Prop extends Facts₀ where

variable [Facts]
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.KernelBody.lean ====
/-
  What the kernel body stores, read at one entry.

  At a grid point the body holds one signal row as 629 blocks of 512 samples and the two weight arrays whole. For
  j = 0, 1, 2, 3 it multiplies the weights' columns 512 j … 512 j + 511 (a 1025 by 512 array) with blocks j … j + 625 of the
  row (a 626 by 512 array), both contracted over the 512 positions into a zero start, and adds the four products, in that
  order, to a zero array. So the stored value at frequency f and frame t is the running total
  (((0 + c 0) + c 1) + c 2) + c 3 with c j the sum over k < 512 of the weight at (f, 512 j + k) times the row's block t + j at
  position k (`part`). The same for both weight arrays.
-/
import proofs.«147450_j60258391162989_2_alg».proof.Proof.Gen.KernelIdeal.Frame
import proofs.«147450_j60258391162989_2_alg».proof.Proof.LibDenseRows
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx

/-- One chunk's contribution at frequency `f` and frame `t`: weights' columns 512 j + k against block t + j of the row. -/
def part (w : Vec Ideal S1025x2048 .bf16) (x0 : Vec Ideal S1x629x512 .bf16) (f : Fin 1025) (t : Fin 626) (j : ℕ) (hj : j < 4) : EReal :=
  ∑ k : Fin 512, w (ix2 f ⟨512 * j + k.val, by have := k.isLt; omega⟩) * x0 (ix3 (0 : Fin 1) ⟨t.val + j, by have := t.isLt; omega⟩ k)

/-- A product of a 1025 by 512 array with a 626 by 512 array (given with a unit axis in front) over their last axes into
    a zero start, at (f, t): the plain sum over the 512 positions. -/
theorem chunk_apply (wv : Vec Ideal S1025x512 .bf16) (xv : Vec Ideal S1x626x512 .bf16) (f : Fin 1025) (t : Fin 626) :
    matmul (F := Ideal) (φ₁ := .bf16) (φ₂ := .bf16) dot_S1025x512_S626x512_S1025x626_1_1_0_0_n_n none (shapeCast S1025x512 wv shapeCasts_S1025x512_S1025x512)
      (shapeCast S626x512 xv shapeCasts_S1x626x512_S626x512) (constant (F := Ideal) S1025x626 .f32 0x00000000#32) (ix2 f t)
      = ∑ k : Fin 512, wv (ix2 f k) * xv (ix3 (0 : Fin 1) t k) := by
  rw [shapeCast_self]
  refine (Cert.DenseRows.matmulT_zero_apply (M := 1025) (K := 512) (N := 626) (φ₁ := .bf16) (φ₂ := .bf16) none wv _ f t).trans ?_
  exact Finset.sum_congr rfl fun k _ => congrArg (wv (ix2 f k) * ·) (shapeCast_1ab_ab_apply xv _ t k)

/-- The weights' columns from 512 j on, loaded: entry (f, k) is the weight at (f, 512 j + k). -/
theorem ld_weights (w : Vec Ideal S1025x2048 .bf16) (j : ℕ) (hj : j < 4)
    (inb : ∀ a, (![0, 512 * j] : Fin 2 → Nat) a + S1025x512.size a ≤ S1025x2048.size a) (f : Fin 1025) (k : Fin 512) :
    View.ld w (Rect.unit (s := S1025x2048) ![0, 512 * j] S1025x512.size inb) (ix2 f k)
      = w (ix2 f ⟨512 * j + k.val, by have := k.isLt; omega⟩) :=
  congrArg w (funext fun a => Fin.ext (by
    match a with
    | ⟨0, _⟩ => show 0 + 1 * f.val = f.val; omega
    | ⟨1, _⟩ => show 512 * j + 1 * k.val = 512 * j + k.val; omega))

/-- The row's blocks from j on, loaded: entry (0, t, k) is block t + j at position k. -/
theorem ld_blocks (x0 : Vec Ideal S1x629x512 .bf16) (j : ℕ) (hj : j < 4)
    (inb : ∀ a, (![0, j, 0] : Fin 3 → Nat) a + S1x626x512.size a ≤ S1x629x512.size a) (t : Fin 626) (k : Fin 512) :
    View.ld x0 (Rect.unit (s := S1x629x512) ![0, j, 0] S1x626x512.size inb) (ix3 (0 : Fin 1) t k)
      = x0 (ix3 (0 : Fin 1) ⟨t.val + j, by have := t.isLt; omega⟩ k) :=
  congrArg x0 (funext fun a => Fin.ext (by
    match a with
    | ⟨0, _⟩ => show 0 + 1 * 0 = 0; omega
    | ⟨1, _⟩ => show j + 1 * t.val = t.val + j; omega
    | ⟨2, _⟩ => show 0 + 1 * k.val = k.val; omega))

/-- One chunk product over the loaded pieces is that chunk's contribution. -/
theorem loaded_chunk (w : Vec Ideal S1025x2048 .bf16) (x0 : Vec Ideal S1x629x512 .bf16) (j : ℕ) (hj : j < 4)
    (inbW : ∀ a, (![0, 512 * j] : Fin 2 → Nat) a + S1025x512.size a ≤ S1025x2048.size a)
    (inbX : ∀ a, (![0, j, 0] : Fin 3 → Nat) a + S1x626x512.size a ≤ S1x629x512.size a) (f : Fin 1025) (t : Fin 626) :
    matmul (F := Ideal) (φ₁ := .bf16) (φ₂ := .bf16) dot_S1025x512_S626x512_S1025x626_1_1_0_0_n_n none
      (shapeCast S1025x512 (View.ld w (Rect.unit (s := S1025x2048) ![0, 512 * j] S1025x512.size inbW)) shapeCasts_S1025x512_S1025x512)
      (shapeCast S626x512 (View.ld x0 (Rect.unit (s := S1x629x512) ![0, j, 0] S1x626x512.size inbX)) shapeCasts_S1x626x512_S626x512)
      (constant (F := Ideal) S1025x626 .f32 0x00000000#32) (ix2 f t)
      = part w x0 f t j hj :=
  (chunk_apply _ _ f t).trans (Finset.sum_congr rfl fun k _ =>
    congrArg₂ (· * ·) (ld_weights w j hj inbW f k) (ld_blocks x0 j hj inbX t k))

/-- The store's rectangle starts at the origin. -/
theorem origin3 : (![0, 0, 0] : Fin 3 → Nat) = fun _ => 0 := funext fun a => by fin_cases a <;> rfl

/-- THE FIRST OUTPUT'S BLOCK at (u, f, t): the running total of the four chunks of the first weight array. -/
theorem real_apply (x0 : Vec Ideal S1x629x512 .bf16) (x1 x2 : Vec Ideal S1025x2048 .bf16) (u : Fin 1) (f : Fin 1025) (t : Fin 626) :
    out0_3 x0 x1 x2 (ix3 u f t)
      = (((0 + part x1 x0 f t 0 (by omega)) + part x1 x0 f t 1 (by omega)) + part x1 x0 f t 2 (by omega)) + part x1 x0 f t 3 (by omega) := by
  unfold out0_3
  rw [View.canon_unit_zero origin3]
  unfold k0_pay2 k0_pay9 k0_pay1 k0_pay4 k0_pay5 k0_pay7
  refine (shapeCast_ab_1ab_apply _ _ u f t).trans ?_
  exact congrArg₂ (· + ·) (congrArg₂ (· + ·) (congrArg₂ (· + ·) (congrArg₂ (· + ·) Ideal.ofBits_zero_f32
    (loaded_chunk x1 x0 0 (by omega) _ _ f t)) (loaded_chunk x1 x0 1 (by omega) _ _ f t)) (loaded_chunk x1 x0 2 (by omega) _ _ f t))
    (loaded_chunk x1 x0 3 (by omega) _ _ f t)

/-- THE SECOND OUTPUT'S BLOCK at (u, f, t): the same of the second weight array. -/
theorem imag_apply (x0 : Vec Ideal S1x629x512 .bf16) (x1 x2 : Vec Ideal S1025x2048 .bf16) (u : Fin 1) (f : Fin 1025) (t : Fin 626) :
    out0_4 x0 x1 x2 (ix3 u f t)
      = (((0 + part x2 x0 f t 0 (by omega)) + part x2 x0 f t 1 (by omega)) + part x2 x0 f t 2 (by omega)) + part x2 x0 f t 3 (by omega) := by
  unfold out0_4
  rw [View.canon_unit_zero origin3]
  unfold k0_pay3 k0_pay6 k0_pay8 k0_pay7 k0_pay1 k0_pay4 k0_pay5
  refine (shapeCast_ab_1ab_apply _ _ u f t).trans ?_
  exact congrArg₂ (· + ·) (congrArg₂ (· + ·) (congrArg₂ (· + ·) (congrArg₂ (· + ·) Ideal.ofBits_zero_f32
    (loaded_chunk x2 x0 0 (by omega) _ _ f t)) (loaded_chunk x2 x0 1 (by omega) _ _ f t)) (loaded_chunk x2 x0 2 (by omega) _ _ f t))
    (loaded_chunk x2 x0 3 (by omega) _ _ f t)

end Cert.KernelIdeal.Body

end
-- ==== Proof.Spec.lean ====
/-
  The framed Fourier sums both programs compute, as one function of the argument arrays.

  A signal row of 320000 samples is first extended by reflection, 1024 samples on each side, to 322048 samples
  (`reflectPad`: the row's samples 1 … 1024 reversed, the row, and the last 1024 samples before the final one reversed).
  Frame t (0 ≤ t < 626) of a padded row is its 2048 consecutive samples starting at 512 · t; tap n of frame t is the
  sample at position 512 · t + n (`tap`). The spectrum of batch row b at frequency f and frame t is the sum over the
  2048 taps of the weight at (f, n) times the tap (`spectrumAt`), on the extended reals; the sum is the commutative one,
  no order of summation is left in it.
-/
import Idealize.ShloMosaic.Lib.ValueIdx
import Idealize.ShloMosaic.PureOps.Ideal

noncomputable section

open scoped BigOperators

namespace Cert.Stft

open Idealize.ShloMosaic Idealize.ShloMosaic.ValueIdx

/-- A batch of 16 signal rows. -/
abbrev SIn : Shape := ⟨2, ![16, 320000]⟩
/-- One reflected edge: 1024 samples per row. -/
abbrev SEdge : Shape := ⟨2, ![16, 1024]⟩
/-- The rows with the left edge attached. -/
abbrev SMid : Shape := ⟨2, ![16, 321024]⟩
/-- The rows with both edges attached. -/
abbrev SPad : Shape := ⟨2, ![16, 322048]⟩
/-- The weights: 1025 frequencies by 2048 taps. -/
abbrev SW : Shape := ⟨2, ![1025, 2048]⟩
/-- The result: 16 rows by 1025 frequencies by 626 frames. -/
abbrev SOut : Shape := ⟨3, ![16, 1025, 626]⟩

variable {α : Type}

/-- An edge and a row side by side make 321024 samples. -/
theorem joins_left : Shape.Concatenates [SEdge, SIn] SMid 1 := by decide

/-- That and a second edge make 322048 samples. -/
theorem joins_right : Shape.Concatenates [SMid, SEdge] SPad 1 := by decide

/-- The rows with samples 1 … 1024 reversed in front of them. -/
def reflectLeft (x : SIn.Idx → α) : SMid.Idx → α :=
  concatenate SMid 1 [⟨SEdge, Host.reverse [1] (extractStridedSlice SEdge ![0, 1] x)⟩, ⟨SIn, x⟩] joins_left

/-- The rows extended by reflection on both sides: behind `reflectLeft` its samples 319999 … 321022 reversed. -/
def reflectPad (x : SIn.Idx → α) : SPad.Idx → α :=
  concatenate SPad 1 [⟨SMid, reflectLeft x⟩,
    ⟨SEdge, Host.reverse [1] (extractStridedSlice SEdge ![0, 319999] (reflectLeft x))⟩] joins_right

/-- The position in a padded row of tap `n` of frame `t`. -/
def tap (t : Fin 626) (n : Fin 2048) : Fin 322048 := ⟨512 * t.val + n.val, by omega⟩

/-- One entry of the spectrum: the sum over the taps of weight times sample. -/
def spectrumAt (P : FVec Ideal SPad .f32) (W : FVec Ideal SW .f32) (b : Fin 16) (f : Fin 1025) (t : Fin 626) : EReal :=
  ∑ n : Fin 2048, W (ix2 f n) * P (ix2 b (tap t n))

/-- The spectrum as an array. -/
def spectrum (P : FVec Ideal SPad .f32) (W : FVec Ideal SW .f32) : FVec Ideal SOut .f32 :=
  fun i => spectrumAt P W (i 0) (i 1) (i 2)

theorem spectrum_ix3 (P : FVec Ideal SPad .f32) (W : FVec Ideal SW .f32) (b : Fin 16) (f : Fin 1025) (t : Fin 626) :
    spectrum P W (ix3 b f t) = spectrumAt P W b f t := rfl

end Cert.Stft

end
-- ==== Proof.KernelEntry.lean ====
/-
  What the kernel's three input arrays hold when the region is entered.

  Before the region the main function reflects the signal rows to 322048 samples, changes the float format (the
  identity on the extended reals) and re-lays each row as 629 blocks of 512 samples; the two weight arrays only change
  format. So the first input array at (b, r, h) is the reflected row b at position 512 r + h, and the other two are the
  weight arguments themselves.
-/
import proofs.«147450_j60258391162989_2_alg».proof.Proof.Gen.KernelIdeal.Frame
import proofs.«147450_j60258391162989_2_alg».proof.Proof.Spec
import Idealize.ShloMosaic.Lib.StableHlo.Run
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

attribute [local irreducible] concatenate extractStridedSlice Host.reverse shapeCast in
/-- The signal array at region entry: the reflected rows re-laid as blocks. -/
theorem signal_eq (c : Dev nD) :
    (V m c main_v2 : S16x629x512.Idx → EReal)
      = shapeCast S16x629x512 (Cert.Stft.reflectPad (m ((c : Thread nD τ).loc main_arg0))) shapeCasts_S16x322048_S16x629x512 := by
  dsimp only [Gen.V]
  simp only [Gen.hostOps0, Gen.hostOps0_1, Gen.hostOps0_2, List.flatten_cons, List.flatten_nil, List.append_nil, List.cons_append,
    List.nil_append]
  after_results_simp
  rfl

/-- At (b, r, h): the reflected row b at position 512 r + h. -/
theorem signal_apply (c : Dev nD) (b : Fin 16) (r : Fin 629) (h : Fin 512) :
    (V m c main_v2 : S16x629x512.Idx → EReal) (ix3 b r h)
      = Cert.Stft.reflectPad (m ((c : Thread nD τ).loc main_arg0)) (ix2 b ⟨512 * r.val + h.val, by have := r.isLt; have := h.isLt; omega⟩) := by
  rw [signal_eq]
  exact shapeCast_apply _ _ _ _ (by
    rw [Shape.rowMajor_val_two, Shape.rowMajor_val_three]
    show b.val * 322048 + (512 * r.val + h.val) = (b.val * 629 + r.val) * 512 + h.val
    omega)

/-- The first weight array at region entry is the first weight argument. -/
theorem weights1_eq (c : Dev nD) :
    (V m c main_v3 : S1025x2048.Idx → EReal) = m ((c : Thread nD τ).loc main_arg1) := by
  dsimp only [Gen.V]
  simp only [Gen.hostOps0, Gen.hostOps0_1, Gen.hostOps0_2, List.flatten_cons, List.flatten_nil, List.append_nil, List.cons_append,
    List.nil_append]
  after_results_simp
  rfl

/-- The second weight array at region entry is the second weight argument. -/
theorem weights2_eq (c : Dev nD) :
    (V m c main_v4 : S1025x2048.Idx → EReal) = m ((c : Thread nD τ).loc main_arg2) := by
  dsimp only [Gen.V]
  simp only [Gen.hostOps0, Gen.hostOps0_1, Gen.hostOps0_2, List.flatten_cons, List.flatten_nil, List.append_nil, List.cons_append,
    List.nil_append]
  after_results_simp
  rfl

end Cert.KernelIdeal.Entry

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.KernelValue.lean ====
/-
  The kernel's two result arrays after the run: the spectra of the reflected rows.

  Grid point t works on batch row t: its input block of the signal array is row t's 629 blocks of 512 samples, the weight
  arrays come whole, and what it writes back is block t — all frequencies and frames of row t — of each result array.
  The body's stored value at (f, t') is the running total of four chunk sums (the body module); with the signal block's
  entry (r, h) the reflected row at position 512 r + h, chunk j's term k is weight (f, 512 j + k) times the reflected
  row at 512 (t' + j) + k = 512 t' + (512 j + k): the term of tap n = 512 j + k of frame t'. Four chunks of 512 taps are
  the 2048 taps, so the running total is the whole sum over the taps — only commutativity and associativity of the
  extended reals' addition are used. The sixteen blocks cover the result arrays, so each ends as the spectrum.
-/
import proofs.«147450_j60258391162989_2_alg».proof.Proof.Gen.KernelIdeal.Value
import proofs.«147450_j60258391162989_2_alg».proof.Proof.KernelBody
import proofs.«147450_j60258391162989_2_alg».proof.Proof.KernelEntry
import proofs.«147450_j60258391162989_2_alg».proof.Proof.Spec
import proofs.«147450_j60258391162989_2_alg».proof.Proof.LibChunkSum

noncomputable section

open scoped BigOperators

namespace Cert.KernelIdeal.Spectrum

open Cert.KernelIdeal Cert.KernelIdeal.Gen Idealize.ShloMosaic Idealize.ShloMosaic.TcCoe Idealize.SL.Sem
open Idealize.ShloMosaic.ValueIdx
open Idealize.ShloMosaic.Pipeline (Dat)

/-! ## One block's entry is the spectrum's -/

/-- Tap 512 j + k, the k-th of chunk j. -/
def chunkTap (j : ℕ) (hj : j < 4) (k : Fin 512) : Fin (4 * 512) := ⟨512 * j + k.val, by have := k.isLt; omega⟩

/-- Chunk j's contribution is the sum of the taps 512 j … 512 j + 511 of the frame's terms. -/
theorem part_eq (P : FVec Ideal Cert.Stft.SPad .f32) (W : FVec Ideal Cert.Stft.SW .f32)
    (x0 : Vec Ideal S1x629x512 .bf16) (x1 : Vec Ideal S1025x2048 .bf16) (b : Fin 16)
    (h0 : ∀ (r : Fin 629) (h : Fin 512), x0 (ix3 (0 : Fin 1) r h) = P (ix2 b ⟨512 * r.val + h.val, by have := r.isLt; have := h.isLt; omega⟩))
    (h1 : ∀ (f : Fin 1025) (n : Fin 2048), x1 (ix2 f n) = W (ix2 f n))
    (f : Fin 1025) (t : Fin 626) (j : ℕ) (hj : j < 4) :
    Body.part x1 x0 f t j hj
      = ∑ k : Fin 512, (fun n : Fin (4 * 512) => W (ix2 f n) * P (ix2 b (Cert.Stft.tap t n))) (chunkTap j hj k) := by
  unfold Body.part
  refine Finset.sum_congr rfl fun k _ => ?_
  refine congrArg₂ (· * ·) (h1 f _) ((h0 _ k).trans (congrArg (fun p => P (ix2 b p)) (Fin.ext ?_)))
  show 512 * (t.val + j) + k.val = 512 * t.val + (512 * j + k.val)
  omega

/-- THE BLOCK'S ENTRY (u, f, t): from blocks that read the reflected row b and the weights, the stored running total
    is the spectrum at (b, f, t). -/
theorem block_apply (P : FVec Ideal Cert.Stft.SPad .f32) (W : FVec Ideal Cert.Stft.SW .f32)
    (x0 : Vec Ideal S1x629x512 .bf16) (x1 : Vec Ideal S1025x2048 .bf16) (b : Fin 16)
    (h0 : ∀ (r : Fin 629) (h : Fin 512), x0 (ix3 (0 : Fin 1) r h) = P (ix2 b ⟨512 * r.val + h.val, by have := r.isLt; have := h.isLt; omega⟩))
    (h1 : ∀ (f : Fin 1025) (n : Fin 2048), x1 (ix2 f n) = W (ix2 f n))
    (f : Fin 1025) (t : Fin 626) :
    (((0 + Body.part x1 x0 f t 0 (by omega)) + Body.part x1 x0 f t 1 (by omega)) + Body.part x1 x0 f t 2 (by omega))
        + Body.part x1 x0 f t 3 (by omega)
      = Cert.Stft.spectrumAt P W b f t := by
  rw [part_eq P W x0 x1 b h0 h1 f t 0, part_eq P W x0 x1 b h0 h1 f t 1, part_eq P W x0 x1 b h0 h1 f t 2,
    part_eq P W x0 x1 b h0 h1 f t 3]
  exact Cert.LibChunkSum.running_four 512 (fun n : Fin (4 * 512) => W (ix2 f n) * P (ix2 b (Cert.Stft.tap t n)))
    (fun c k => chunkTap c.val c.isLt k) (fun _ _ => rfl)

/-! ## The windows' blocks at a grid point -/

variable (m : (ℓ : Loc nD τ sig) → Buf (Elt Ideal) ℓ) (ρ : Dev nD → PrngReg)

/-- The printed index maps over the sixteen grid points: the signal's and the results' blocks move with the point along
    the batch axis, the weights' block stays. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- A grid point is a batch row. -/
theorem point_lt (t : Fin cfg0.N) : t.val < 16 := by
  have h := t.isLt
  have hN : cfg0.N = 16 := N_0
  omega

/-- The signal block at point t, entry (0, r, h): the reflected row t at position 512 r + h. -/
theorem signal_block (c : Dev nD) (t : Fin cfg0.N) (r : Fin 629) (h : Fin 512) :
    iblk m c 0 t (ix3 (0 : Fin 1) r h)
      = Cert.Stft.reflectPad (m ((c : Thread nD τ).loc main_arg0))
          (ix2 (⟨t.val, point_lt t⟩ : Fin 16) ⟨512 * r.val + h.val, by have := r.isLt; have := h.isLt; omega⟩) := by
  obtain ⟨e00, e01, e02, -⟩ := idx_facts t
  show V m c main_v2 (((cfg0.win 0).blk t).view.emb (ix3 (0 : Fin 1) r h)) = _
  have he : ((cfg0.win 0).blk t).view.emb (ix3 (0 : Fin 1) r h) = ix3 (⟨t.val, point_lt t⟩ : Fin 16) r h := by
    funext a; apply Fin.ext
    match a with
    | ⟨0, _⟩ => show win0_0.index t (0 : Fin 3) * 1 + 1 * 0 = t.val; omega
    | ⟨1, _⟩ => show win0_0.index t (1 : Fin 3) * 629 + 1 * r.val = r.val; omega
    | ⟨2, _⟩ => show win0_0.index t (2 : Fin 3) * 512 + 1 * h.val = h.val; omega
  rw [he]
  exact Entry.signal_apply m c _ r h

/-- The first weight block at any point is the first weight argument. -/
theorem weights1_block (c : Dev nD) (t : Fin cfg0.N) (f : Fin 1025) (n : Fin 2048) :
    iblk m c 1 t (ix2 f n) = m ((c : Thread nD τ).loc main_arg1) (ix2 f n) := by
  obtain ⟨-, -, -, e10, e11, -⟩ := idx_facts t
  show V m c main_v3 (((cfg0.win 1).blk t).view.emb (ix2 f n)) = _
  have he : ((cfg0.win 1).blk t).view.emb (ix2 f n) = ix2 f n := by
    funext a; apply Fin.ext
    match a with
    | ⟨0, _⟩ => show win0_1.index t (0 : Fin 2) * 1025 + 1 * f.val = f.val; omega
    | ⟨1, _⟩ => show win0_1.index t (1 : Fin 2) * 2048 + 1 * n.val = n.val; omega
  rw [he]
  exact congrFun (Entry.weights1_eq m c) (ix2 f n)

/-- The second weight block at any point is the second weight argument. -/
theorem weights2_block (c : Dev nD) (t : Fin cfg0.N) (f : Fin 1025) (n : Fin 2048) :
    iblk m c 2 t (ix2 f n) = m ((c : Thread nD τ).loc main_arg2) (ix2 f n) := by
  obtain ⟨-, -, -, -, -, e20, e21, -⟩ := idx_facts t
  show V m c main_v4 (((cfg0.win 2).blk t).view.emb (ix2 f n)) = _
  have he : ((cfg0.win 2).blk t).view.emb (ix2 f n) = ix2 f n := by
    funext a; apply Fin.ext
    match a with
    | ⟨0, _⟩ => show win0_2.index t (0 : Fin 2) * 1025 + 1 * f.val = f.val; omega
    | ⟨1, _⟩ => show win0_2.index t (1 : Fin 2) * 2048 + 1 * n.val = n.val; omega
  rw [he]
  exact congrFun (Entry.weights2_eq m c) (ix2 f n)

/-! ## What each point writes back -/

/-- Point t writes back block t of the first spectrum. -/
theorem flushed3_eq (c : Dev nD) (t : Fin cfg0.N) :
    (dats m 0 c).flushed 3 t = ((cfg0.win 3).blk t).view.read (Elt Ideal)
      (Cert.Stft.spectrum (Cert.Stft.reflectPad (m ((c : Thread nD τ).loc main_arg0))) (m ((c : Thread nD τ).loc main_arg1))) := by
  rw [Value.flushed3]
  obtain ⟨-, -, -, -, -, -, -, e30, e31, e32, -⟩ := idx_facts t
  funext y
  obtain ⟨u, f, tt, rfl⟩ : ∃ (u : Fin 1) (f : Fin 1025) (tt : Fin 626), y = ix3 u f tt := ⟨y 0, y 1, y 2, eq_ix3 y⟩
  show out0_3 (iblk m c 0 t) (iblk m c 1 t) (iblk m c 2 t) (ix3 u f tt)
    = Cert.Stft.spectrum _ _ (((cfg0.win 3).blk t).view.emb (ix3 u f tt))
  have he : ((cfg0.win 3).blk t).view.emb (ix3 u f tt) = ix3 (⟨t.val, point_lt t⟩ : Fin 16) f tt := by
    funext a; apply Fin.ext
    match a with
    | ⟨0, _⟩ => show win0_3.index t (0 : Fin 3) * 1 + 1 * u.val = t.val; omega
    | ⟨1, _⟩ => show win0_3.index t (1 : Fin 3) * 1025 + 1 * f.val = f.val; omega
    | ⟨2, _⟩ => show win0_3.index t (2 : Fin 3) * 626 + 1 * tt.val = tt.val; omega
  rw [he, Cert.Stft.spectrum_ix3]
  refine (Body.real_apply _ _ _ u f tt).trans ?_
  exact block_apply _ _ (iblk m c 0 t) (iblk m c 1 t) ⟨t.val, point_lt t⟩ (signal_block m c t) (weights1_block m c t) f tt

/-- Point t writes back block t of the second spectrum. -/
theorem flushed4_eq (c : Dev nD) (t : Fin cfg0.N) :
    (dats m 0 c).flushed 4 t = ((cfg0.win 4).blk t).view.read (Elt Ideal)
      (Cert.Stft.spectrum (Cert.Stft.reflectPad (m ((c : Thread nD τ).loc main_arg0))) (m ((c : Thread nD τ).loc main_arg2))) := by
  rw [Value.flushed4]
  obtain ⟨-, -, -, -, -, -, -, -, -, -, e40, e41, e42⟩ := idx_facts t
  funext y
  obtain ⟨u, f, tt, rfl⟩ : ∃ (u : Fin 1) (f : Fin 1025) (tt : Fin 626), y = ix3 u f tt := ⟨y 0, y 1, y 2, eq_ix3 y⟩
  show out0_4 (iblk m c 0 t) (iblk m c 1 t) (iblk m c 2 t) (ix3 u f tt)
    = Cert.Stft.spectrum _ _ (((cfg0.win 4).blk t).view.emb (ix3 u f tt))
  have he : ((cfg0.win 4).blk t).view.emb (ix3 u f tt) = ix3 (⟨t.val, point_lt t⟩ : Fin 16) f tt := by
    funext a; apply Fin.ext
    match a with
    | ⟨0, _⟩ => show win0_4.index t (0 : Fin 3) * 1 + 1 * u.val = t.val; omega
    | ⟨1, _⟩ => show win0_4.index t (1 : Fin 3) * 1025 + 1 * f.val = f.val; omega
    | ⟨2, _⟩ => show win0_4.index t (2 : Fin 3) * 626 + 1 * tt.val = tt.val; omega
  rw [he, Cert.Stft.spectrum_ix3]
  refine (Body.imag_apply _ _ _ u f tt).trans ?_
  exact block_apply _ _ (iblk m c 0 t) (iblk m c 2 t) ⟨t.val, point_lt t⟩ (signal_block m c t) (weights2_block m c t) f tt

/-! ## The blocks cover the arrays -/

/-- An index of the first result array is in point t's block iff each coordinate is in the block's range. -/
theorem mem_blk3 (t : Fin cfg0.N) (i : S16x1025x626.Idx) :
    i ∈ ((cfg0.win 3).blk t).view.set ↔ ∀ a : Fin 3, win0_3.index t a * S1x1025x626.size a ≤ (i a).val
      ∧ (i a).val < win0_3.index t a * S1x1025x626.size a + S1x1025x626.size a := by
  show i ∈ ((View.whole main_v5_0).slice (win0_3.rect t)).set ↔ _
  rw [View.set_slice_whole, Rect.mem_set_unit]
  exact Iff.rfl

/-- The same for the second result array. -/
theorem mem_blk4 (t : Fin cfg0.N) (i : S16x1025x626.Idx) :
    i ∈ ((cfg0.win 4).blk t).view.set ↔ ∀ a : Fin 3, win0_4.index t a * S1x1025x626.size a ≤ (i a).val
      ∧ (i a).val < win0_4.index t a * S1x1025x626.size a + S1x1025x626.size a := by
  show i ∈ ((View.whole main_v5_1).slice (win0_4.rect t)).set ↔ _
  rw [View.set_slice_whole, Rect.mem_set_unit]
  exact Iff.rfl

/-- Every index of the first result array is in the block of the point its batch coordinate names. -/
theorem cover3 (i : S16x1025x626.Idx) : ∃ t : Fin cfg0.N, (cfg0.win 3).flush t = true ∧ i ∈ ((cfg0.win 3).blk t).view.set := by
  have hi0 : (i 0).val < 16 := (i 0).isLt
  have hi1 : (i 1).val < 1025 := (i 1).isLt
  have hi2 : (i 2).val < 626 := (i 2).isLt
  refine ⟨⟨(i 0).val, by have hN : cfg0.N = 16 := N_0; omega⟩, flush0_3 _, ?_⟩
  rw [mem_blk3]
  obtain ⟨-, -, -, -, -, -, -, e30, e31, e32, -⟩ := idx_facts ⟨(i 0).val, by have hN : cfg0.N = 16 := N_0; omega⟩
  intro a
  match a with
  | ⟨0, _⟩ =>
    show win0_3.index _ (0 : Fin 3) * 1 ≤ (i 0).val ∧ (i 0).val < win0_3.index _ (0 : Fin 3) * 1 + 1
    rw [e30]; show (i 0).val * 1 ≤ (i 0).val ∧ (i 0).val < (i 0).val * 1 + 1; omega
  | ⟨1, _⟩ =>
    show win0_3.index _ (1 : Fin 3) * 1025 ≤ (i 1).val ∧ (i 1).val < win0_3.index _ (1 : Fin 3) * 1025 + 1025
    rw [e31]; omega
  | ⟨2, _⟩ =>
    show win0_3.index _ (2 : Fin 3) * 626 ≤ (i 2).val ∧ (i 2).val < win0_3.index _ (2 : Fin 3) * 626 + 626
    rw [e32]; omega

/-- The same for the second result array. -/
theorem cover4 (i : S16x1025x626.Idx) : ∃ t : Fin cfg0.N, (cfg0.win 4).flush t = true ∧ i ∈ ((cfg0.win 4).blk t).view.set := by
  have hi0 : (i 0).val < 16 := (i 0).isLt
  have hi1 : (i 1).val < 1025 := (i 1).isLt
  have hi2 : (i 2).val < 626 := (i 2).isLt
  refine ⟨⟨(i 0).val, by have hN : cfg0.N = 16 := N_0; omega⟩, flush0_4 _, ?_⟩
  rw [mem_blk4]
  obtain ⟨-, -, -, -, -, -, -, -, -, -, e40, e41, e42⟩ := idx_facts ⟨(i 0).val, by have hN : cfg0.N = 16 := N_0; omega⟩
  intro a
  match a with
  | ⟨0, _⟩ =>
    show win0_4.index _ (0 : Fin 3) * 1 ≤ (i 0).val ∧ (i 0).val < win0_4.index _ (0 : Fin 3) * 1 + 1
    rw [e40]; show (i 0).val * 1 ≤ (i 0).val ∧ (i 0).val < (i 0).val * 1 + 1; omega
  | ⟨1, _⟩ =>
    show win0_4.index _ (1 : Fin 3) * 1025 ≤ (i 1).val ∧ (i 1).val < win0_4.index _ (1 : Fin 3) * 1025 + 1025
    rw [e41]; omega
  | ⟨2, _⟩ =>
    show win0_4.index _ (2 : Fin 3) * 626 ≤ (i 2).val ∧ (i 2).val < win0_4.index _ (2 : Fin 3) * 626 + 626
    rw [e42]; omega

/-! ## The arrays after the run, and the run -/

/-- The first result array ends as the spectrum of the first weights. -/
theorem final3 (c : Dev nD) : (dats m 0 c).arrAt 3 cfg0.N
    = Cert.Stft.spectrum (Cert.Stft.reflectPad (m ((c : Thread nD τ).loc main_arg0))) (m ((c : Thread nD τ).loc main_arg1)) :=
  (dats m 0 c).arrAt_eq_of_cover 3 _ (fun t _ => flushed3_eq m c t) cover3

/-- The second result array ends as the spectrum of the second weights. -/
theorem final4 (c : Dev nD) : (dats m 0 c).arrAt 4 cfg0.N
    = Cert.Stft.spectrum (Cert.Stft.reflectPad (m ((c : Thread nD τ).loc main_arg0))) (m ((c : Thread nD τ).loc main_arg2)) :=
  (dats m 0 c).arrAt_eq_of_cover 4 _ (fun t _ => flushed4_eq m c t) cover4

/-- Every weakly fair execution of the kernel's program terminates with the two result arrays at the spectra of the
    reflected rows, the arguments unchanged. -/
theorem run : θ_run defs (onTc (τ := τ) (main (F := Ideal))) ⟨m, fun _ => 0, ρ⟩ fun r => ∀ c : Dev nD,
      r.2.mem ((c : Thread nD τ).loc main_v5_0)
        = Cert.Stft.spectrum (Cert.Stft.reflectPad (m ((c : Thread nD τ).loc main_arg0))) (m ((c : Thread nD τ).loc main_arg1))
      ∧ r.2.mem ((c : Thread nD τ).loc main_v5_1)
        = Cert.Stft.spectrum (Cert.Stft.reflectPad (m ((c : Thread nD τ).loc main_arg0))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Spectrum

end
-- ==== Proof.RefRun.lean ====
/-
  The reference program's run read back.

  Its main function is a straight line of 32 array operations: the reflection of the signal rows (two slices, two
  reversals, two concatenations, and two one-column slices nothing reads), the frame positions as 32-bit integers
  (512 times the frame number plus the tap number, with jax's wrap of a negative index: add 322048 when below zero), the
  lookup of the padded rows at those positions, and for each weight array the contraction over the 2048 taps followed
  by the exchange of the first two axes. Every weakly fair execution terminates with each result buffer holding that
  composition applied to the argument arrays, which stay as they were. The composition is named piece by piece below.
-/
import proofs.«147450_j60258391162989_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composition, piece by piece -/

/-- The rows with their samples 1 … 1024 reversed in front. -/
def leftPadded (x : FVec F S16x320000 .f32) : FVec F S16x321024 .f32 :=
  concatenate S16x321024 1 [⟨S16x1024, Host.reverse [1] (extractStridedSlice S16x1024 ![0, 1] x slices_S16x320000_S16x1024_0_1)⟩, ⟨S16x320000, x⟩] concatenates_S16x1024_S16x320000_S16x321024_d1

/-- The rows reflected on both sides. -/
def padded (x : FVec F S16x320000 .f32) : FVec F S16x322048 .f32 :=
  concatenate S16x322048 1 [⟨S16x321024, leftPadded x⟩, ⟨S16x1024, Host.reverse [1] (extractStridedSlice S16x1024 ![0, 319999] (leftPadded x) slices_S16x321024_S16x1024_0_319999)⟩] concatenates_S16x321024_S16x1024_S16x322048_d1

/-- 512 times the frame number, as a column. -/
def frameStarts : IVec S626x1 32 :=
  muli (broadcastInDim S626x1 ![0] bcast_S626_S626x1_0 (iotaInDim S626 32 0)) (broadcastInDim S626x1 ![] bcast_S_S626x1 (constantI S_ 32 512#32))

/-- Frame start plus tap number, per frame and tap. -/
def positions : IVec S626x2048 32 :=
  addi (broadcastInDim S626x2048 ![0, 1] bcast_S626x1_S626x2048_0_1 frameStarts)
    (broadcastInDim S626x2048 ![0, 1] bcast_S1x2048_S626x2048_0_1 (broadcastInDim S1x2048 ![1] bcast_S2048_S1x2048_1 (iotaInDim S2048 32 0)))

/-- The positions with a negative one wrapped around the row's length. -/
def wrapped : IVec S626x2048 32 :=
  select (cmpi .slt positions (broadcastInDim S626x2048 ![] bcast_S_S626x2048 (constantI S_ 32 0#32)))
    (addi positions (broadcastInDim S626x2048 ![] bcast_S_S626x2048 (constantI S_ 32 322048#32))) positions

/-- The same with a unit axis behind, as the lookup takes them. -/
def lookupIdx : IVec S626x2048x1 32 := broadcastInDim S626x2048x1 ![0, 1] bcast_S626x2048_S626x2048x1_0_1 wrapped

/-- The frames: per row, frame and tap the padded row's sample at the position. -/
def frames (x : FVec F S16x320000 .f32) : FVec F S16x626x2048 .f32 :=
  Host.gather gather_S16x322048_S626x2048x1_S16x626x2048_0_1_n_n_1_2_161 (padded x) lookupIdx

/-- One result: the weights contracted with the frames over the taps, rows and frequencies exchanged. -/
def out (w : FVec F S1025x2048 .f32) (x : FVec F S16x320000 .f32) : FVec F S16x1025x626 .f32 :=
  transpose S16x1025x626 [1, 0, 2] (Host.dotGeneral dot_S1025x2048_S16x626x2048_S1025x16x626_1_2_0_01_n_n none w (frames x)) transposes_S1025x16x626_S16x1025x626_1_0_2

/-! ## The operations and the run -/

/-- The main function's 32 operations, in order, the reflection's eight at the buffers of their call. -/
abbrev ops : List (HloOp τ sig (Elt F)) :=
  [ nullary main_c (constantI S_ 32 0#32),
    TRef.unary (.of main_arg0 : TRef sig ⟨S16x320000, .f32⟩) main_call0.v0 (extractStridedSlice S16x1 ![0, 0] · slices_S16x320000_S16x1_0_0),
    TRef.unary (.of main_arg0 : TRef sig ⟨S16x320000, .f32⟩) main_call0.v1 (extractStridedSlice S16x1024 ![0, 1] · slices_S16x320000_S16x1024_0_1),
    TRef.unary main_call0.v1 main_call0.call0.v0 (Host.reverse [1]),
    TRef.binary main_call0.call0.v0 (.of main_arg0 : TRef sig ⟨S16x320000, .f32⟩) main_call0.v3 (fun a b => concatenate S16x321024 1 [⟨S16x1024, a⟩, ⟨S16x320000, b⟩] concatenates_S16x1024_S16x320000_S16x321024_d1),
    TRef.unary main_call0.v3 main_call0.v4 (extractStridedSlice S16x1 ![0, 321023] · slices_S16x321024_S16x1_0_321023),
    TRef.unary main_call0.v3 main_call0.v5 (extractStridedSlice S16x1024 ![0, 319999] · slices_S16x321024_S16x1024_0_319999),
    TRef.unary main_call0.v5 main_call0.call1.v0 (Host.reverse [1]),
    TRef.binary main_call0.v3 main_call0.call1.v0 main_call0.v7 (fun a b => concatenate S16x322048 1 [⟨S16x321024, a⟩, ⟨S16x1024, b⟩] concatenates_S16x321024_S16x1024_S16x322048_d1),
    nullary main_v1 (iotaInDim S626 32 0),
    unary main_v1 main_v2 (broadcastInDim S626x1 ![0] bcast_S626_S626x1_0 : (⟨S626, .i32⟩ : BufTy).Contents (Elt F) → (⟨S626x1, .i32⟩ : BufTy).Contents (Elt F)),
    nullary main_c_0 (constantI S_ 32 512#32),
    unary main_c_0 main_v3 (broadcastInDim S626x1 ![] bcast_S_S626x1 : (⟨S_, .i32⟩ : BufTy).Contents (Elt F) → (⟨S626x1, .i32⟩ : BufTy).Contents (Elt F)),
    binary main_v2 main_v3 main_v4 (muli : (⟨S626x1, .i32⟩ : BufTy).Contents (Elt F) → (⟨S626x1, .i32⟩ : BufTy).Contents (Elt F) → (⟨S626x1, .i32⟩ : BufTy).Contents (Elt F)),
    nullary main_v5 (iotaInDim S2048 32 0),
    unary main_v5 main_v6 (broadcastInDim S1x2048 ![1] bcast_S2048_S1x2048_1 : (⟨S2048, .i32⟩ : BufTy).Contents (Elt F) → (⟨S1x2048, .i32⟩ : BufTy).Contents (Elt F)),
    unary main_v4 main_v7 (broadcastInDim S626x2048 ![0, 1] bcast_S626x1_S626x2048_0_1 : (⟨S626x1, .i32⟩ : BufTy).Contents (Elt F) → (⟨S626x2048, .i32⟩ : BufTy).Contents (Elt F)),
    unary main_v6 main_v8 (broadcastInDim S626x2048 ![0, 1] bcast_S1x2048_S626x2048_0_1 : (⟨S1x2048, .i32⟩ : BufTy).Contents (Elt F) → (⟨S626x2048, .i32⟩ : BufTy).Contents (Elt F)),
    binary main_v7 main_v8 main_v9 (addi : (⟨S626x2048, .i32⟩ : BufTy).Contents (Elt F) → (⟨S626x2048, .i32⟩ : BufTy).Contents (Elt F) → (⟨S626x2048, .i32⟩ : BufTy).Contents (Elt F)),
    nullary main_c_1 (constantI S_ 32 0#32),
    unary main_c_1 main_v10 (broadcastInDim S626x2048 ![] bcast_S_S626x2048 : (⟨S_, .i32⟩ : BufTy).Contents (Elt F) → (⟨S626x2048, .i32⟩ : BufTy).Contents (Elt F)),
    binary main_v9 main_v10 main_v11 (cmpi .slt : (⟨S626x2048, .i32⟩ : BufTy).Contents (Elt F) → (⟨S626x2048, .i32⟩ : BufTy).Contents (Elt F) → (⟨S626x2048, .i1⟩ : BufTy).Contents (Elt F)),
    nullary main_c_2 (constantI S_ 32 322048#32),
    unary main_c_2 main_v12 (broadcastInDim S626x2048 ![] bcast_S_S626x2048 : (⟨S_, .i32⟩ : BufTy).Contents (Elt F) → (⟨S626x2048, .i32⟩ : BufTy).Contents (Elt F)),
    binary main_v9 main_v12 main_v13 (addi : (⟨S626x2048, .i32⟩ : BufTy).Contents (Elt F) → (⟨S626x2048, .i32⟩ : BufTy).Contents (Elt F) → (⟨S626x2048, .i32⟩ : BufTy).Contents (Elt F)),
    ternary main_v11 main_v13 main_v9 main_v14 (select : (⟨S626x2048, .i1⟩ : BufTy).Contents (Elt F) → (⟨S626x2048, .i32⟩ : BufTy).Contents (Elt F) → (⟨S626x2048, .i32⟩ : BufTy).Contents (Elt F) → (⟨S626x2048, .i32⟩ : BufTy).Contents (Elt F)),
    unary main_v14 main_v15 (broadcastInDim S626x2048x1 ![0, 1] bcast_S626x2048_S626x2048x1_0_1 : (⟨S626x2048, .i32⟩ : BufTy).Contents (Elt F) → (⟨S626x2048x1, .i32⟩ : BufTy).Contents (Elt F)),
    binary main_v0 main_v15 main_v16 ((fun x i => Host.gather gather_S16x322048_S626x2048x1_S16x626x2048_0_1_n_n_1_2_161 x i) : (⟨S16x322048, .f32⟩ : BufTy).Contents (Elt F) → (⟨S626x2048x1, .i32⟩ : BufTy).Contents (Elt F) → (⟨S16x626x2048, .f32⟩ : BufTy).Contents (Elt F)),
    binary main_arg1 main_v16 main_v17 ((fun l r => Host.dotGeneral dot_S1025x2048_S16x626x2048_S1025x16x626_1_2_0_01_n_n none l r) : (⟨S1025x2048, .f32⟩ : BufTy).Contents (Elt F) → (⟨S16x626x2048, .f32⟩ : BufTy).Contents (Elt F) → (⟨S1025x16x626, .f32⟩ : BufTy).Contents (Elt F)),
    unary main_v17 main_v18 ((transpose S16x1025x626 [1, 0, 2] · transposes_S1025x16x626_S16x1025x626_1_0_2) : (⟨S1025x16x626, .f32⟩ : BufTy).Contents (Elt F) → (⟨S16x1025x626, .f32⟩ : BufTy).Contents (Elt F)),
    binary main_arg2 main_v16 main_v19 ((fun l r => Host.dotGeneral dot_S1025x2048_S16x626x2048_S1025x16x626_1_2_0_01_n_n none l r) : (⟨S1025x2048, .f32⟩ : BufTy).Contents (Elt F) → (⟨S16x626x2048, .f32⟩ : BufTy).Contents (Elt F) → (⟨S1025x16x626, .f32⟩ : BufTy).Contents (Elt F)),
    unary main_v19 main_v20 ((transpose S16x1025x626 [1, 0, 2] · transposes_S1025x16x626_S16x1025x626_1_0_2) : (⟨S1025x16x626, .f32⟩ : BufTy).Contents (Elt F) → (⟨S16x1025x626, .f32⟩ : BufTy).Contents (Elt F)) ]

set_option maxRecDepth 2048 in
/-- The main function is that straight line: the two local functions unfolded at their calls. -/
theorem main_eq (c : Dev nD) : main (F := F) c = seq ops := by
  simp only [main, fn_pad.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub ..⟩

attribute [local irreducible] Host.gather concatenate transpose extractStridedSlice Host.reverse broadcastInDim in
/-- What the first result's buffer holds after the line, from any contents: the composition of the weights' and the
    signal rows' contents. -/
theorem out18_eq (V : Valuation τ sig (Elt F)) :
    after ops V (main_v18 : DevRef τ sig) = out (V (main_arg1 : DevRef τ sig)) (V (main_arg0 : DevRef τ sig)) := by
  after_results_simp
  rfl

attribute [local irreducible] Host.gather concatenate transpose extractStridedSlice Host.reverse broadcastInDim in
/-- The same for the second result and the second weight array. -/
theorem out20_eq (V : Valuation τ sig (Elt F)) :
    after ops V (main_v20 : DevRef τ sig) = out (V (main_arg2 : DevRef τ sig)) (V (main_arg0 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

/-- Every weakly fair execution of the reference terminates with its two results at `out` of the weights and the signal
    rows, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = out (m ((c.tc : Thread nD τ).loc main_arg1)) (m ((c.tc : Thread nD τ).loc main_arg0))
      ∧ r.2.mem ((c.tc : Thread nD τ).loc main_v20) = out (m ((c.tc : Thread nD τ).loc main_arg2)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v18).trans (out18_eq _),
      (h c main_v20).trans (out20_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.LibFrameGather.lean ====
/-
  A lookup of rows at a table of positions, read at one result index.

  The operand is an array of `B` rows of length `L`; the start indices are a `T` by `N` table of positions (with a unit
  axis behind it); the result has, for row `b` and table cell `(t, n)`, the operand's row `b` at the position the table
  holds at `(t, n)`, read as a signed integer and clamped into `[0, L - 1]`. In the lookup's dimension numbers the
  result's first axis is its one offset axis (it runs over the operand's rows, whole), the operand's second axis is
  collapsed and is the one the start index addresses. Generic in the four sizes.
-/
import Idealize.ShloMosaic.Lib.ValueIdx

noncomputable section

namespace Cert.LibFrameGather

open Idealize.ShloMosaic Idealize.ShloMosaic.ValueIdx

variable {α : Type}

/-- The dimension numbers: offset axis 0 of the result, operand axis 1 collapsed and addressed by the start index, the
    index vector on axis 2 of the start indices, slices of `B` rows by one position. A program's printed record equals this
    one by `rfl`. -/
abbrev rowsAtDims (B L T N : Nat)
    (wf : GatherDims.WF ⟨2, ![B, L]⟩ ⟨3, ![T, N, 1]⟩ ⟨3, ![B, T, N]⟩ [0] [1] [] [1] [] 2 ![B, 1]) :
    GatherDims ⟨2, ![B, L]⟩ ⟨3, ![T, N, 1]⟩ ⟨3, ![B, T, N]⟩ where
  offsetDims := [0]
  collapsedSliceDims := [1]
  operandBatchingDims := []
  startIndicesBatchingDims := []
  startIndexMap := [1]
  indexVectorDim := 2
  sliceSizes := ![B, 1]
  wf := wf

/-- THE LOOKUP READ AT `(b, t, n)`: row `b` of the operand at the position the table holds at `(t, n)`, read signed and
    clamped into `[0, L - 1]`. -/
theorem gather_rowsAt_apply {B L T N w : Nat} (hL : 0 < L)
    (wf : GatherDims.WF ⟨2, ![B, L]⟩ ⟨3, ![T, N, 1]⟩ ⟨3, ![B, T, N]⟩ [0] [1] [] [1] [] 2 ![B, 1])
    (x : (⟨2, ![B, L]⟩ : Shape).Idx → α) (idx : IVec ⟨3, ![T, N, 1]⟩ w) (b : Fin B) (t : Fin T) (n : Fin N) :
    Host.gather (rowsAtDims B L T N wf) x idx (ix3 b t n)
      = x (ix2 b ⟨min (idx (ix3 t n (0 : Fin 1))).toInt.toNat (L - 1), by omega⟩) := by
  unfold Host.gather
  congr 1
  funext a
  refine Fin.ext ?_
  match a with
  | ⟨0, _⟩ =>
    show (rowsAtDims B L T N wf).start (ix3 b t n) idx 0 + (rowsAtDims B L T N wf).batchCoord (ix3 b t n) 0
      + (rowsAtDims B L T N wf).offCoord (ix3 b t n) 0 = b.val
    rw [GatherDims.batchCoord_eq_zero _ _ _ List.not_mem_nil]
    unfold GatherDims.start
    rw [dif_neg (show ¬((0 : Fin 2) ∈ (rowsAtDims B L T N wf).startIndexMap) from
      fun h => absurd (List.mem_singleton.mp h) (Fin.ne_of_val_ne Nat.zero_ne_one))]
    unfold GatherDims.offCoord
    rw [dif_pos (show (0 : Fin 2) ∈ (rowsAtDims B L T N wf).sKept from
      (GatherDims.mem_sKept _ _).mpr ⟨fun h => absurd (List.mem_singleton.mp h) (Fin.ne_of_val_ne Nat.zero_ne_one), List.not_mem_nil⟩)]
    simp only [Nat.zero_add]
    rfl
  | ⟨1, _⟩ =>
    show (rowsAtDims B L T N wf).start (ix3 b t n) idx 1 + (rowsAtDims B L T N wf).batchCoord (ix3 b t n) 1
      + (rowsAtDims B L T N wf).offCoord (ix3 b t n) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowsAtDims B L T N wf).startIndexMap from List.mem_singleton.mpr rfl)]
    have hsi : (rowsAtDims B L T N wf).siIdx (ix3 b t n) ⟨List.idxOf (1 : Fin 2) (rowsAtDims B L T N wf).startIndexMap,
        List.idxOf_lt_length_iff.2 (List.mem_singleton.mpr rfl)⟩ = ix3 t n (0 : Fin 1) := by
      funext c; refine Fin.ext ?_
      match c with
      | ⟨0, _⟩ => rfl
      | ⟨1, _⟩ => rfl
      | ⟨2, _⟩ => rfl
    rw [hsi]
    rfl

end Cert.LibFrameGather

end
-- ==== Proof.LibFrameDot.lean ====
/-
  A contraction of a weight matrix with a stack of frames, and the exchange of the result's first two axes, read at one
  entry on the extended reals.

  * `dotGeneral_weightsFrames_apply`: weights [F, N] contracted on their last axis with frames [B, T, N] on their last axis
    give an [F, B, T] array which at (f, b, t) is the plain sum over n of weight (f, n) times frame entry (b, t, n).
  * `transpose_102_apply`: an [F, B, T] array with its first two axes exchanged reads, at (b, f, t), the operand at (f, b, t).
  Generic in the four sizes.
-/
import Idealize.ShloMosaic.Lib.ValueIdx
import Idealize.ShloMosaic.Lib.Pipeline.Value
import Idealize.ShloMosaic.PureOps.Ideal.Laws

noncomputable section

open scoped BigOperators

namespace Cert.LibFrameDot

open Idealize.ShloMosaic Idealize.ShloMosaic.ValueIdx

variable {F N B T : ℕ}

/-- The dimension numbers: the weights' axis 1 against the frames' axis 2, no batch axes; the result's axes are the
    weights' axis 0, then the frames' axes 0 and 1. A program's printed record equals this one by `rfl`. -/
abbrev weightsFramesDims (F N B T : ℕ)
    (wf : DotDims.WF ⟨2, ![F, N]⟩ ⟨3, ![B, T, N]⟩ ⟨3, ![F, B, T]⟩ [1] [2] [0] [0, 1] [] []) :
    DotDims ⟨2, ![F, N]⟩ ⟨3, ![B, T, N]⟩ ⟨3, ![F, B, T]⟩ where
  lhsContracting := [1]
  rhsContracting := [2]
  lhsNonContracting := [0]
  rhsNonContracting := [0, 1]
  lhsBatch := []
  rhsBatch := []
  wf := wf

variable (wf : DotDims.WF ⟨2, ![F, N]⟩ ⟨3, ![B, T, N]⟩ ⟨3, ![F, B, T]⟩ [1] [2] [0] [0, 1] [] [])

/-- The weights' row is the result's first coordinate. -/
theorem lhs_0 (i : (⟨3, ![F, B, T]⟩ : Shape).Idx) (q : (weightsFramesDims F N B T wf).contr.Idx) :
    ((weightsFramesDims F N B T wf).lhsIdx i q 0).val = (i 0).val := by
  unfold DotDims.lhsIdx
  rw [dif_neg (show ¬(0 : Fin (⟨2, ![F, N]⟩ : Shape).rank) ∈ (weightsFramesDims F N B T wf).lhsBatch from List.not_mem_nil),
    dif_pos (show (0 : Fin (⟨2, ![F, N]⟩ : Shape).rank) ∈ (weightsFramesDims F N B T wf).lhsNonContracting from List.mem_singleton.mpr rfl)]
  rfl

/-- The weights' column is the contraction position. -/
theorem lhs_1 (i : (⟨3, ![F, B, T]⟩ : Shape).Idx) (q : (weightsFramesDims F N B T wf).contr.Idx) :
    ((weightsFramesDims F N B T wf).lhsIdx i q 1).val = (q ⟨0, Nat.one_pos⟩).val :=
  (weightsFramesDims F N B T wf).lhsIdx_val_of_single rfl i q

/-- The frames' first coordinate is the result's second. -/
theorem rhs_0 (i : (⟨3, ![F, B, T]⟩ : Shape).Idx) (q : (weightsFramesDims F N B T wf).contr.Idx) :
    ((weightsFramesDims F N B T wf).rhsIdx i q 0).val = (i 1).val := by
  unfold DotDims.rhsIdx
  rw [dif_neg (show ¬(0 : Fin (⟨3, ![B, T, N]⟩ : Shape).rank) ∈ (weightsFramesDims F N B T wf).rhsBatch from List.not_mem_nil),
    dif_pos (show (0 : Fin (⟨3, ![B, T, N]⟩ : Shape).rank) ∈ (weightsFramesDims F N B T wf).rhsNonContracting from List.mem_cons_self)]
  rfl

/-- The frames' second coordinate is the result's third. -/
theorem rhs_1 (i : (⟨3, ![F, B, T]⟩ : Shape).Idx) (q : (weightsFramesDims F N B T wf).contr.Idx) :
    ((weightsFramesDims F N B T wf).rhsIdx i q 1).val = (i 2).val := by
  unfold DotDims.rhsIdx
  rw [dif_neg (show ¬(1 : Fin (⟨3, ![B, T, N]⟩ : Shape).rank) ∈ (weightsFramesDims F N B T wf).rhsBatch from List.not_mem_nil),
    dif_pos (show (1 : Fin (⟨3, ![B, T, N]⟩ : Shape).rank) ∈ (weightsFramesDims F N B T wf).rhsNonContracting from
      List.mem_cons_of_mem _ (List.mem_singleton.mpr rfl))]
  rfl

/-- The frames' last coordinate is the contraction position. -/
theorem rhs_2 (i : (⟨3, ![F, B, T]⟩ : Shape).Idx) (q : (weightsFramesDims F N B T wf).contr.Idx) :
    ((weightsFramesDims F N B T wf).rhsIdx i q 2).val = (q ⟨0, Nat.one_pos⟩).val :=
  (weightsFramesDims F N B T wf).rhsIdx_val_of_single rfl i q

/-- THE CONTRACTION AT (f, b, t): the sum over n of weight (f, n) times frame entry (b, t, n). -/
theorem dotGeneral_weightsFrames_apply {φ₁ φ₂ : FTy} (prec : Option ContractPrecision) (sched : HostSchedule)
    (w : FVec Ideal ⟨2, ![F, N]⟩ φ₁) (x : FVec Ideal ⟨3, ![B, T, N]⟩ φ₂) (f : Fin F) (b : Fin B) (t : Fin T) :
    FloatOps.dotGeneral (weightsFramesDims F N B T wf) prec sched w x (ix3 f b t)
      = ∑ n : Fin N, w (ix2 f n) * x (ix3 b t n) := by
  rw [Ideal.dotGeneral_apply, ← Equiv.sum_comp (contrEquiv1 (weightsFramesDims F N B T wf) N rfl rfl).symm]
  refine Finset.sum_congr rfl fun n _ => ?_
  have hn := contrEquiv1_symm_val (weightsFramesDims F N B T wf) N rfl rfl n
  have el : (weightsFramesDims F N B T wf).lhsIdx (ix3 f b t) ((contrEquiv1 (weightsFramesDims F N B T wf) N rfl rfl).symm n) = ix2 f n :=
    funext fun a => Fin.ext (by
      match a with
      | ⟨0, _⟩ => exact lhs_0 wf _ _
      | ⟨1, _⟩ => exact (lhs_1 wf _ _).trans hn)
  have er : (weightsFramesDims F N B T wf).rhsIdx (ix3 f b t) ((contrEquiv1 (weightsFramesDims F N B T wf) N rfl rfl).symm n) = ix3 b t n :=
    funext fun a => Fin.ext (by
      match a with
      | ⟨0, _⟩ => exact rhs_0 wf _ _
      | ⟨1, _⟩ => exact rhs_1 wf _ _
      | ⟨2, _⟩ => exact (rhs_2 wf _ _).trans hn)
  rw [el, er]

/-- An [F, B, T] array with its first two axes exchanged reads, at (b, f, t), the operand at (f, b, t). -/
theorem transpose_102_apply {α : Type} (x : (⟨3, ![F, B, T]⟩ : Shape).Idx → α)
    (h : (⟨3, ![F, B, T]⟩ : Shape).Transposes [1, 0, 2] ⟨3, ![B, F, T]⟩) (b : Fin B) (f : Fin F) (t : Fin T) :
    transpose ⟨3, ![B, F, T]⟩ [1, 0, 2] x h (ix3 b f t) = x (ix3 f b t) :=
  transpose_apply _ x h _ _ fun c => match c with | ⟨0, _⟩ => rfl | ⟨1, _⟩ => rfl | ⟨2, _⟩ => rfl

end Cert.LibFrameDot

end
-- ==== Proof.RefRead.lean ====
/-
  The reference's result read at one entry: it is the spectrum of the reflected rows.

  The positions the reference looks the padded rows up at are 32-bit integers: 512 times the frame number plus the tap
  number. For 626 frames and 2048 taps that is at most 322047, far below 2³¹, so the product and the sum do not wrap, the
  number is not negative (jax's wrap of a negative index does not apply) and it lies inside the row (the lookup's clamp
  does not apply): the looked-up sample is the padded row at position 512 t + n. The contraction over the taps and the
  exchange of the first two axes then give, at (b, f, t), the sum over n of weight (f, n) times that sample.
-/
import proofs.«147450_j60258391162989_2_alg».proof.Proof.RefRun
import proofs.«147450_j60258391162989_2_alg».proof.Proof.Spec
import proofs.«147450_j60258391162989_2_alg».proof.Proof.LibFrameGather
import proofs.«147450_j60258391162989_2_alg».proof.Proof.LibFrameDot

noncomputable section

open scoped BigOperators

namespace Cert.ReferenceIdeal.RefRead

open Cert.ReferenceIdeal Cert.ReferenceIdeal.Gen Cert.ReferenceIdeal.RefRun Idealize.ShloMosaic Idealize.ShloMosaic.ValueIdx

/-! ## The positions as 32-bit integers -/

/-- The product and the sum do not wrap. -/
theorem position_value (t n : ℕ) (ht : t < 626) (hn : n < 2048) :
    BitVec.ofNat 32 t * 512#32 + BitVec.ofNat 32 n = BitVec.ofNat 32 (512 * t + n) := by
  apply BitVec.eq_of_toNat_eq
  simp only [BitVec.toNat_add, BitVec.toNat_mul, BitVec.toNat_ofNat]
  omega

/-- A number below 2³¹ read back as a signed integer is itself. -/
theorem toInt_small (v : ℕ) (hv : v < 2147483648) : (BitVec.ofNat 32 v).toInt = (v : ℤ) := by
  rw [BitVec.toInt_eq_toNat_cond, BitVec.toNat_ofNat]
  have h : v % 2 ^ 32 = v := Nat.mod_eq_of_lt (by omega)
  rw [h, if_pos (by omega)]

/-- Such a number is not below zero. -/
theorem not_negative (v : ℕ) (hv : v < 2147483648) : (BitVec.ofNat 32 v).slt 0#32 = false := by
  rw [BitVec.slt, toInt_small v hv]
  simp

/-- A position inside the row is its own clamp into the row. -/
theorem clamp_small (v : ℕ) (hv : v < 322048) : min (BitVec.ofNat 32 v).toInt.toNat (322048 - 1) = v := by
  rw [toInt_small v (by omega)]
  simp only [Int.toNat_natCast]
  omega

/-- Frame start plus tap number at (t, n), as the operations compute it. -/
theorem positions_apply (t : Fin 626) (n : Fin 2048) :
    positions (ix2 t n) = BitVec.ofNat 32 t.val * 512#32 + BitVec.ofNat 32 n.val := rfl

/-- The wrapped position at (t, n) is 512 t + n. -/
theorem wrapped_apply (t : Fin 626) (n : Fin 2048) : wrapped (ix2 t n) = BitVec.ofNat 32 (512 * t.val + n.val) := by
  have hp : positions (ix2 t n) = BitVec.ofNat 32 (512 * t.val + n.val) :=
    (positions_apply t n).trans (position_value t.val n.val t.isLt n.isLt)
  show Scalar.select (IntOp.cmpi .slt (positions (ix2 t n)) 0#32) (IntOp.addi (positions (ix2 t n)) 322048#32) (positions (ix2 t n)) = _
  rw [hp]
  have hlt : IntOp.cmpi .slt (BitVec.ofNat 32 (512 * t.val + n.val)) 0#32 = 0#1 := by
    show BitVec.ofBool ((BitVec.ofNat 32 (512 * t.val + n.val)).slt 0#32) = 0#1
    rw [not_negative _ (by have := t.isLt; have := n.isLt; omega)]
    rfl
  rw [hlt, select_zero]

/-- The lookup's start index at (t, n, 0) is the wrapped position at (t, n). -/
theorem lookupIdx_apply (t : Fin 626) (n : Fin 2048) : lookupIdx (ix3 t n (0 : Fin 1)) = wrapped (ix2 t n) :=
  congrArg wrapped (funext fun a => Fin.ext (by
    match a with
    | ⟨0, _⟩ => rfl
    | ⟨1, _⟩ => rfl))

/-! ## The frames, the contraction, the exchange of axes -/

/-- A frame's tap is the padded row's sample at position 512 t + n. -/
theorem frames_apply (x : FVec Ideal S16x320000 .f32) (b : Fin 16) (t : Fin 626) (n : Fin 2048) :
    frames x (ix3 b t n) = Cert.Stft.reflectPad x (ix2 b (Cert.Stft.tap t n)) := by
  have hg := Cert.LibFrameGather.gather_rowsAt_apply (B := 16) (L := 322048) (T := 626) (N := 2048) (by omega)
    gather_S16x322048_S626x2048x1_S16x626x2048_0_1_n_n_1_2_161_wf (padded x) lookupIdx b t n
  refine hg.trans (congrArg (Cert.Stft.reflectPad x) (funext fun a => Fin.ext ?_))
  match a with
  | ⟨0, _⟩ => rfl
  | ⟨1, _⟩ =>
    show min (lookupIdx (ix3 t n (0 : Fin 1))).toInt.toNat (322048 - 1) = 512 * t.val + n.val
    rw [lookupIdx_apply, wrapped_apply]
    exact clamp_small _ (by have := t.isLt; have := n.isLt; omega)

/-- THE REFERENCE'S RESULT at (b, f, t): the sum over the taps of weight times the reflected row's sample. -/
theorem out_apply (w : FVec Ideal S1025x2048 .f32) (x : FVec Ideal S16x320000 .f32) (b : Fin 16) (f : Fin 1025) (t : Fin 626) :
    out w x (ix3 b f t) = Cert.Stft.spectrumAt (Cert.Stft.reflectPad x) w b f t := by
  unfold out
  refine (Cert.LibFrameDot.transpose_102_apply _ _ b f t).trans ?_
  refine (Cert.LibFrameDot.dotGeneral_weightsFrames_apply (F := 1025) (N := 2048) (B := 16) (T := 626)
    dot_S1025x2048_S16x626x2048_S1025x16x626_1_2_0_01_n_n_wf none .single w (frames x) f b t).trans ?_
  exact Finset.sum_congr rfl fun n _ => congrArg (w (ix2 f n) * ·) (frames_apply x b t n)

/-- The reference's result array is the spectrum of the reflected rows. -/
theorem out_eq (w : FVec Ideal S1025x2048 .f32) (x : FVec Ideal S16x320000 .f32) :
    out w x = Cert.Stft.spectrum (Cert.Stft.reflectPad x) w := by
  funext i
  obtain ⟨b, f, t, rfl⟩ : ∃ (b : Fin 16) (f : Fin 1025) (t : Fin 626), i = ix3 b f t := ⟨i 0, i 1, i 2, eq_ix3 i⟩
  exact out_apply w x b f t

end Cert.ReferenceIdeal.RefRead

end
-- ==== Proof.lean ====
/-
  The kernel and its reference compute the same framed Fourier sums.

  Both programs first extend each of the 16 signal rows by reflection to 322048 samples — by the same operations — and
  then form, for each of the two 1025 by 2048 weight arrays, for every row b, frequency f and frame t < 626, the sum
  over the 2048 taps n of weight (f, n) times the extended row at position 512 t + n.

  The reference gathers the frames (its positions 512 t + n, computed in 32-bit integers, neither wrap nor leave the
  row), contracts them with the weights over the taps and exchanges the first two axes of the result.

  The kernel views a row as 629 blocks of 512 samples; at grid point b it multiplies, for j = 0 … 3, the weights' columns
  512 j … 512 j + 511 with the row's blocks t + j over the 512 positions and adds the four products to a zero start: term
  k of chunk j is weight (f, 512 j + k) times the row at 512 (t + j) + k, which is tap n = 512 j + k of frame t. Four chunks of
  512 taps are the 2048 taps, and a sum on the extended reals may be regrouped freely (addition there is commutative
  and associative, at the infinities too), so the running total is the reference's sum. No finiteness of the inputs
  is used. The change of float format on the way into the kernel is the identity on the extended reals; the
  idealized kernel is the kernel's own text, so the statement relating the two has nothing to prove.

  The three frames: the two kernels' are the generated frame certificates; the reference's is its run with the results
  dropped.
-/
import proofs.«147450_j60258391162989_2_alg».proof.Defs
import proofs.«147450_j60258391162989_2_alg».proof.Proof.Gen.Kernel
import proofs.«147450_j60258391162989_2_alg».proof.Proof.Gen.Kernel.Skeleton
import proofs.«147450_j60258391162989_2_alg».proof.Proof.Gen.Kernel.Launch
import proofs.«147450_j60258391162989_2_alg».proof.Proof.Gen.Kernel.Points
import proofs.«147450_j60258391162989_2_alg».proof.Proof.Gen.Kernel.Frame
import proofs.«147450_j60258391162989_2_alg».proof.Proof.Gen.KernelIdeal
import proofs.«147450_j60258391162989_2_alg».proof.Proof.Gen.KernelIdeal.Skeleton
import proofs.«147450_j60258391162989_2_alg».proof.Proof.Gen.KernelIdeal.Launch
import proofs.«147450_j60258391162989_2_alg».proof.Proof.Gen.KernelIdeal.Points
import proofs.«147450_j60258391162989_2_alg».proof.Proof.Gen.KernelIdeal.Frame
import proofs.«147450_j60258391162989_2_alg».proof.Proof.Gen.ReferenceIdeal
import proofs.«147450_j60258391162989_2_alg».proof.Proof.Gen.Pre_finite_inputs
import proofs.«147450_j60258391162989_2_alg».proof.Proof.KernelValue
import proofs.«147450_j60258391162989_2_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

/-- The idealized kernel is the kernel's own text: no rewrite to account for. -/
theorem preserves : Cert.preserves_Kernel_KernelIdeal := trivial

/-- Both programs end with the two spectra of the reflected rows: the kernel by its blocks (the running totals of
    four chunk sums), the reference by its gathered frames, from arguments that agree. -/
theorem algebraic : Cert.algebraic_KernelIdeal_ReferenceIdeal := by
  intro m ρ m' ρ' _ hagree
  refine ⟨_, _, Cert.KernelIdeal.Spectrum.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · rw [(hagree c).1, (hagree c).2.1]
    exact Cert.ReferenceIdeal.RefRead.out_eq _ _
  · rw [(hagree c).1, (hagree c).2.2]
    exact Cert.ReferenceIdeal.RefRead.out_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
